-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2x3999x512 : Shape := ⟨4, ![8, 2, 3999, 512]⟩
abbrev S16x512 : Shape := ⟨2, ![16, 512]⟩
abbrev S_ : Shape := ⟨0, ![]⟩

class Facts : Prop where
  bcast_S_S8x2x3999x512 : S_.BroadcastsInDim S8x2x3999x512 (![] : Fin 0 → Fin S8x2x3999x512.rank)
  reducesTo_S8x2x3999x512_S_d0_1_2_3 : S8x2x3999x512.ReducesTo [0, 1, 2, 3] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S8x2x3999x512 .f32) (main_arg1 : FVec F S16x512 .f32) : IVec S_ 1 :=
  let main_v0 : FVec F S8x2x3999x512 .f32 := Host.absf main_arg0
  let main_cst : FVec F S_ .f32 := constant S_ .f32 0x7F800000#32
  let main_v1 : FVec F S8x2x3999x512 .f32 := broadcastInDim S8x2x3999x512 ![] bcast_S_S8x2x3999x512 main_cst
  let main_v2 : IVec S8x2x3999x512 1 := cmpf .olt main_v0 main_v1
  let main_c : IVec S_ 1 := constantI S_ 1 1#1
  let main_v3 : IVec S_ 1 := (fun x v => Host.reduce IntOp.andi x v reducesTo_S8x2x3999x512_S_d0_1_2_3 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  main_v8
-- ==== Kernel.lean ====
abbrev S8x2x3999x512 : Shape := ⟨4, ![8, 2, 3999, 512]⟩
abbrev S16x512 : Shape := ⟨2, ![16, 512]⟩
abbrev S16x3999x512 : Shape := ⟨3, ![16, 3999, 512]⟩
abbrev S512x16 : Shape := ⟨2, ![512, 16]⟩
abbrev S16x1x32000 : Shape := ⟨3, ![16, 1, 32000]⟩
abbrev S1x3999x512 : Shape := ⟨3, ![1, 3999, 512]⟩
abbrev S1x1x32000 : Shape := ⟨3, ![1, 1, 32000]⟩
abbrev S3999x512 : Shape := ⟨2, ![3999, 512]⟩
abbrev S3999x16 : Shape := ⟨2, ![3999, 16]⟩
abbrev S3999x8 : Shape := ⟨2, ![3999, 8]⟩
abbrev S1x8 : Shape := ⟨2, ![1, 8]⟩
abbrev S4000x8 : Shape := ⟨2, ![4000, 8]⟩
abbrev S32000 : Shape := ⟨1, ![32000]⟩
abbrev S8x2x32000 : Shape := ⟨3, ![8, 2, 32000]⟩

abbrev nBuf : Space → Nat
  | .hbm => 6
  | .vmem => 5
  | .smem => 0
  | _ => 0

abbrev bufTy : (tb : Table) → Fin (tcTables nBuf tb) → BufTy
  | .hbm, ⟨0, _⟩ => ⟨S8x2x3999x512, .f32⟩
  | .hbm, ⟨1, _⟩ => ⟨S16x512, .f32⟩
  | .hbm, ⟨2, _⟩ => ⟨S16x3999x512, .f32⟩
  | .hbm, ⟨3, _⟩ => ⟨S512x16, .f32⟩
  | .hbm, ⟨4, _⟩ => ⟨S16x1x32000, .f32⟩
  | .hbm, ⟨5, _⟩ => ⟨S8x2x32000, .f32⟩
  | .local _ .vmem, ⟨0, _⟩ => ⟨S1x3999x512, .f32⟩
  | .local _ .vmem, ⟨1, _⟩ => ⟨S1x3999x512, .f32⟩
  | .local _ .vmem, ⟨2, _⟩ => ⟨S512x16, .f32⟩
  | .local _ .vmem, ⟨3, _⟩ => ⟨S1x1x32000, .f32⟩
  | .local _ .vmem, ⟨4, _⟩ => ⟨S1x1x32000, .f32⟩
  | _, _ => ⟨S8x2x3999x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3999x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x2x3999x512_S16x3999x512 : S8x2x3999x512.ShapeCasts S16x3999x512
  transposes_S16x512_S512x16_1_0 : S16x512.Transposes [1, 0] S512x16
  inb_S1x3999x512_S1x3999x512_0_0_0 : ∀ a, (![0, 0, 0] : Fin 3 → Nat) a + S1x3999x512.size a ≤ S1x3999x512.size a
  h_S1x3999x512 : 0 < S1x3999x512.numel
  shapeCasts_S1x3999x512_S3999x512 : S1x3999x512.ShapeCasts S3999x512
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  shapeCasts_S512x16_S512x16 : S512x16.ShapeCasts S512x16
  slices_S3999x16_o0_0_S3999x8 : S3999x16.Slices ![0, 0] S3999x8
  slices_S3999x16_o0_8_S3999x8 : S3999x16.Slices ![0, 8] S3999x8
  concatenates_S3999x8_S1x8_S4000x8_d0 : Shape.Concatenates [S3999x8, S1x8] S4000x8 0
  concatenates_S1x8_S3999x8_S4000x8_d0 : Shape.Concatenates [S1x8, S3999x8] S4000x8 0
  shapeCasts_S4000x8_S32000 : S4000x8.ShapeCasts S32000
  inb_S1x1x32000_S1x1x32000_0_0_0 : ∀ a, (![0, 0, 0] : Fin 3 → Nat) a + S1x1x32000.size a ≤ S1x1x32000.size a
  h_S1x1x32000 : 0 < S1x1x32000.numel
  shapeCasts_S1x1x32000_S32000 : S1x1x32000.ShapeCasts S32000
  shapeCasts_S32000_S1x1x32000 : S32000.ShapeCasts S1x1x32000
  shapeCasts_S16x1x32000_S8x2x32000 : S16x1x32000.ShapeCasts S8x2x32000
  dot_S3999x512_S512x16_S3999x16_1_0_0_1_n_n_wf : DotDims.WF S3999x512 S512x16 S3999x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3999x512.size a ≤ S16x3999x512.size a
  hwx0_0 : ∀ i : grid0.Coords, EltTy.bits .f32 = 32 ∨ (Rect.block (s := S16x3999x512) S1x3999x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x32000.size a ≤ S16x1x32000.size a
  hwx0_2 : ∀ i : grid0.Coords, EltTy.bits .f32 = 32 ∨ (Rect.block (s := S16x1x32000) S1x1x32000.size (cc0_transform_2 i) (hinb0_2 i)).WholeWords (EltTy.packing .f32)

variable [Facts₀]

def dot_S3999x512_S512x16_S3999x16_1_0_0_1_n_n : DotDims S3999x512 S512x16 S3999x16 where
  lhsContracting := [1]
  rhsContracting := [0]
  lhsNonContracting := [0]
  rhsNonContracting := [1]
  lhsBatch := []
  rhsBatch := []
  wf := dot_S3999x512_S512x16_S3999x16_1_0_0_1_n_n_wf

abbrev win0_0 : Pipeline.Window sig grid0 :=
  Pipeline.Window.ofSpec (Memref.whole main_v0) S1x3999x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x32000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2x3999x512 : Shape := ⟨4, ![8, 2, 3999, 512]⟩
abbrev S16x512 : Shape := ⟨2, ![16, 512]⟩
abbrev S8x2x3999x16 : Shape := ⟨4, ![8, 2, 3999, 16]⟩
abbrev S3999 : Shape := ⟨1, ![3999]⟩
abbrev S3999x1 : Shape := ⟨2, ![3999, 1]⟩
abbrev S_ : Shape := ⟨0, ![]⟩
abbrev S16 : Shape := ⟨1, ![16]⟩
abbrev S1x16 : Shape := ⟨2, ![1, 16]⟩
abbrev S3999x16 : Shape := ⟨2, ![3999, 16]⟩
abbrev S63984 : Shape := ⟨1, ![63984]⟩
abbrev S8x2x63984 : Shape := ⟨3, ![8, 2, 63984]⟩
abbrev S8x2x32000 : Shape := ⟨3, ![8, 2, 32000]⟩
abbrev S63984x1 : Shape := ⟨2, ![63984, 1]⟩

abbrev nBuf : Space → Nat
  | .hbm => 26
  | .vmem => 0
  | .smem => 0
  | _ => 0

abbrev bufTy : (tb : Table) → Fin (tcTables nBuf tb) → BufTy
  | .hbm, ⟨0, _⟩ => ⟨S8x2x3999x512, .f32⟩
  | .hbm, ⟨1, _⟩ => ⟨S16x512, .f32⟩
  | .hbm, ⟨2, _⟩ => ⟨S8x2x3999x16, .f32⟩
  | .hbm, ⟨3, _⟩ => ⟨S3999, .i32⟩
  | .hbm, ⟨4, _⟩ => ⟨S3999x1, .i32⟩
  | .hbm, ⟨5, _⟩ => ⟨S_, .i32⟩
  | .hbm, ⟨6, _⟩ => ⟨S3999x1, .i32⟩
  | .hbm, ⟨7, _⟩ => ⟨S3999x1, .i32⟩
  | .hbm, ⟨8, _⟩ => ⟨S16, .i32⟩
  | .hbm, ⟨9, _⟩ => ⟨S1x16, .i32⟩
  | .hbm, ⟨10, _⟩ => ⟨S3999x16, .i32⟩
  | .hbm, ⟨11, _⟩ => ⟨S3999x16, .i32⟩
  | .hbm, ⟨12, _⟩ => ⟨S3999x16, .i32⟩
  | .hbm, ⟨13, _⟩ => ⟨S63984, .i32⟩
  | .hbm, ⟨14, _⟩ => ⟨S8x2x63984, .f32⟩
  | .hbm, ⟨15, _⟩ => ⟨S_, .f32⟩
  | .hbm, ⟨16, _⟩ => ⟨S8x2x32000, .f32⟩
  | .hbm, ⟨17, _⟩ => ⟨S_, .i32⟩
  | .hbm, ⟨18, _⟩ => ⟨S63984, .i32⟩
  | .hbm, ⟨19, _⟩ => ⟨S63984, .i1⟩
  | .hbm, ⟨20, _⟩ => ⟨S_, .i32⟩
  | .hbm, ⟨21, _⟩ => ⟨S63984, .i32⟩
  | .hbm, ⟨22, _⟩ => ⟨S63984, .i32⟩
  | .hbm, ⟨23, _⟩ => ⟨S63984, .i32⟩
  | .hbm, ⟨24, _⟩ => ⟨S63984x1, .i32⟩
  | .hbm, ⟨25, _⟩ => ⟨S8x2x32000, .f32⟩
  | _, _ => ⟨S8x2x3999x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S3999_S3999x1_0 : S3999.BroadcastsInDim S3999x1 (![0] : Fin 1 → Fin S3999x1.rank)
  bcast_S_S3999x1 : S_.BroadcastsInDim S3999x1 (![] : Fin 0 → Fin S3999x1.rank)
  bcast_S16_S1x16_1 : S16.BroadcastsInDim S1x16 (![1] : Fin 1 → Fin S1x16.rank)
  bcast_S3999x1_S3999x16_0_1 : S3999x1.BroadcastsInDim S3999x16 (![0, 1] : Fin 2 → Fin S3999x16.rank)
  bcast_S1x16_S3999x16_0_1 : S1x16.BroadcastsInDim S3999x16 (![0, 1] : Fin 2 → Fin S3999x16.rank)
  shapeCasts_S3999x16_S63984 : S3999x16.ShapeCasts S63984
  shapeCasts_S8x2x3999x16_S8x2x63984 : S8x2x3999x16.ShapeCasts S8x2x63984
  bcast_S_S8x2x32000 : S_.BroadcastsInDim S8x2x32000 (![] : Fin 0 → Fin S8x2x32000.rank)
  bcast_S_S63984 : S_.BroadcastsInDim S63984 (![] : Fin 0 → Fin S63984.rank)
  bcast_S63984_S63984x1_0 : S63984.BroadcastsInDim S63984x1 (![0] : Fin 1 → Fin S63984x1.rank)
  dot_S8x2x3999x512_S16x512_S8x2x3999x16_3_1_012_0_n_n_wf : DotDims.WF S8x2x3999x512 S16x512 S8x2x3999x16 [3] [1] [0, 1, 2] [0] [] []
  scatter_S8x2x32000_S63984x1_S8x2x63984_01_2_2_1_wf : ScatterDims.WF S8x2x32000 S63984x1 S8x2x63984 [0, 1] [2] [2] 1

variable [Facts₀]

def dot_S8x2x3999x512_S16x512_S8x2x3999x16_3_1_012_0_n_n : DotDims S8x2x3999x512 S16x512 S8x2x3999x16 where
  lhsContracting := [3]
  rhsContracting := [1]
  lhsNonContracting := [0, 1, 2]
  rhsNonContracting := [0]
  lhsBatch := []
  rhsBatch := []
  wf := dot_S8x2x3999x512_S16x512_S8x2x3999x16_3_1_012_0_n_n_wf
def scatter_S8x2x32000_S63984x1_S8x2x63984_01_2_2_1 : ScatterDims S8x2x32000 S63984x1 S8x2x63984 where
  updateWindowDims := [0, 1]
  insertedWindowDims := [2]
  scatterDimsToOperandDims := [2]
  indexVectorDim := 1
  wf := scatter_S8x2x32000_S63984x1_S8x2x63984_01_2_2_1_wf

class Facts : Prop extends Facts₀ where

variable [Facts]
-- ==== Proof.KernelPayload.lean ====
/-
  What the kernel body stores, read at an index.

  The body multiplies its input block `[1, 3999, 512]` (one batch-channel pair's rows) by its weight block `[512, 16]`
  (the weight, transposed) into the 3999 frames of 16 samples; cuts each frame into its first and second eight samples;
  puts a row of zeros after the first halves and before the second halves, so that row `j` of the one holds frame `j`'s
  first half (nothing for `j = 3999`) and row `j` of the other frame `j − 1`'s second half (nothing for `j = 0`); adds
  the two; and stores the 4000 rows of 8 flattened. So sample `t` of what it stores is
      frame (t / 8) at (t % 8)  +  (if 1 ≤ t / 8 then frame (t / 8 − 1) at (8 + t % 8) else 0),
  a frame read as `0` outside `l < 3999`, `s < 16`. The change of float format before the product is the identity on
  the extended reals, and the product's accumulator is the zero array.
-/
import proofs.«159106_j21345987461775_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The product's dimension numbers: rows of the input block against columns of the weight block. -/
abbrev DD : DotDims S3999x512 S512x16 S3999x16 := dot_S3999x512_S512x16_S3999x16_1_0_0_1_n_n

variable (x0 : Vec Ideal S1x3999x512 .f32) (x1 : Vec Ideal S512x16 .f32)

/-! ## The frames of one block -/

/-- Sample `s` of frame `l` of the block; zero outside the frames. -/
def blockFrame (l s : Nat) : EReal :=
  if h : l < 3999 ∧ s < 16 then
    ∑ k : Fin 512, x0 (ix3 (⟨0, Nat.one_pos⟩ : Fin 1) (⟨l, h.1⟩ : Fin 3999) k) * x1 (ix2 k (⟨s, h.2⟩ : Fin 16))
  else 0

theorem blockFrame_of_not (l s : Nat) (h : ¬(l < 3999 ∧ s < 16)) : blockFrame x0 x1 l s = 0 := dif_neg h

theorem blockFrame_of_lt (l s : Nat) (hl : l < 3999) (hs : s < 16) :
    blockFrame x0 x1 l s
      = ∑ k : Fin 512, x0 (ix3 (⟨0, Nat.one_pos⟩ : Fin 1) (⟨l, hl⟩ : Fin 3999) k) * x1 (ix2 k (⟨s, hs⟩ : Fin 16)) :=
  dif_pos ⟨hl, hs⟩

/-- The product of the two blocks. -/
def frames : FVec Ideal S3999x16 .f32 :=
  matmul DD none (truncf .bf16 (shapeCast S3999x512 x0 shapeCasts_S1x3999x512_S3999x512) bitsLt_bf16_f32)
    (truncf .bf16 (shapeCast S512x16 x1 shapeCasts_S512x16_S512x16) bitsLt_bf16_f32)
    (constant (F := Ideal) S3999x16 .f32 0x00000000#32)

theorem lhs_row (i : S3999x16.Idx) (q : DD.contr.Idx) : (DD.lhsIdx i q 0).val = (i 0).val := by
  unfold DotDims.lhsIdx
  rw [dif_neg (show ¬(0 : Fin S3999x512.rank) ∈ DD.lhsBatch by decide), dif_pos (show (0 : Fin S3999x512.rank) ∈ DD.lhsNonContracting by decide)]
  rfl
theorem lhs_col (i : S3999x16.Idx) (q : DD.contr.Idx) : (DD.lhsIdx i q 1).val = (q ⟨0, by decide⟩).val :=
  DD.lhsIdx_val_of_single rfl i q
theorem rhs_row (i : S3999x16.Idx) (q : DD.contr.Idx) : (DD.rhsIdx i q 0).val = (q ⟨0, by decide⟩).val :=
  DD.rhsIdx_val_of_single rfl i q
theorem rhs_col (i : S3999x16.Idx) (q : DD.contr.Idx) : (DD.rhsIdx i q 1).val = (i 1).val := by
  unfold DotDims.rhsIdx
  rw [dif_neg (show ¬(1 : Fin S512x16.rank) ∈ DD.rhsBatch by decide), dif_pos (show (1 : Fin S512x16.rank) ∈ DD.rhsNonContracting by decide)]
  rfl

/-- The product at `(l, s)` is the inner product of the input block's row `l` with the weight block's column `s`. -/
theorem frames_apply (l : Fin 3999) (s : Fin 16) :
    frames x0 x1 (ix2 l s) = blockFrame x0 x1 l.val s.val := by
  rw [blockFrame_of_lt x0 x1 l.val s.val l.isLt s.isLt]
  unfold frames
  simp only [matmul]
  refine (Ideal.matmul_constant_zero_apply DD none _ _ (ix2 l s)).trans ?_
  rw [← Equiv.sum_comp (contrEquiv1 DD 512 rfl rfl).symm]
  refine Finset.sum_congr rfl fun k _ => ?_
  have hk := contrEquiv1_symm_val DD 512 rfl rfl k
  congr 1
  · refine (shapeCast_apply x0 shapeCasts_S1x3999x512_S3999x512 _ (ix3 (⟨0, Nat.one_pos⟩ : Fin 1) (⟨l.val, l.isLt⟩ : Fin 3999) k) ?_)
    rewrite [Shape.rowMajor_val_three, Shape.rowMajor_val_two]
    have e0 := lhs_row (ix2 l s) ((contrEquiv1 DD 512 rfl rfl).symm k)
    have e1 := (lhs_col (ix2 l s) ((contrEquiv1 DD 512 rfl rfl).symm k)).trans hk
    show (0 * 3999 + l.val) * 512 + k.val
      = (DD.lhsIdx (ix2 l s) ((contrEquiv1 DD 512 rfl rfl).symm k) 0).val * 512 + (DD.lhsIdx (ix2 l s) ((contrEquiv1 DD 512 rfl rfl).symm k) 1).val
    rw [e0, e1]
    show (0 * 3999 + l.val) * 512 + k.val = l.val * 512 + k.val
    omega
  · show shapeCast S512x16 x1 shapeCasts_S512x16_S512x16 (DD.rhsIdx (ix2 l s) ((contrEquiv1 DD 512 rfl rfl).symm k)) = _
    rw [shapeCast_self]
    exact congrArg x1 (funext fun a => Fin.ext (by
      match a with
      | ⟨0, _⟩ => exact (rhs_row _ _).trans hk
      | ⟨1, _⟩ => exact rhs_col _ _))

/-! ## Halves, zero rows, and the sum -/

/-- The first eight samples of every frame, and the last eight. -/
def fstHalf (y : FVec Ideal S3999x16 .f32) : FVec Ideal S3999x8 .f32 :=
  extractStridedSlice S3999x8 ![0, 0] y slices_S3999x16_o0_0_S3999x8
def sndHalf (y : FVec Ideal S3999x16 .f32) : FVec Ideal S3999x8 .f32 :=
  extractStridedSlice S3999x8 ![0, 8] y slices_S3999x16_o0_8_S3999x8

theorem fstHalf_apply (y : FVec Ideal S3999x16 .f32) (l : Fin 3999) (r : Fin 8) :
    fstHalf y (ix2 l r) = y (ix2 l (⟨r.val, by have := r.isLt; omega⟩ : Fin 16)) :=
  extractStridedSlice_apply _ y slices_S3999x16_o0_0_S3999x8 (ix2 l r) _ (fun a => by
    match a with
    | ⟨0, _⟩ => show l.val = 0 + l.val; omega
    | ⟨1, _⟩ => show r.val = 0 + r.val; omega)

theorem sndHalf_apply (y : FVec Ideal S3999x16 .f32) (l : Fin 3999) (r : Fin 8) :
    sndHalf y (ix2 l r) = y (ix2 l (⟨8 + r.val, by have := r.isLt; omega⟩ : Fin 16)) :=
  extractStridedSlice_apply _ y slices_S3999x16_o0_8_S3999x8 (ix2 l r) _ (fun a => by
    match a with
    | ⟨0, _⟩ => show l.val = 0 + l.val; omega
    | ⟨1, _⟩ => show 8 + r.val = 8 + r.val; rfl)

/-- A row of zeros (the integer zero converted). -/
def zeroRow : FVec Ideal S1x8 .f32 := broadcast S1x8 (Scalar.sitofp (F := Ideal) .f32 0#32)

theorem zeroRow_apply (i : S1x8.Idx) : zeroRow i = 0 := by
  show Scalar.sitofp (F := Ideal) .f32 0#32 = 0
  rw [Ideal.scalar_sitofp_def]
  simp

/-- A zero row after the 3999 rows, and a zero row before them. -/
def padAfter (y : FVec Ideal S3999x8 .f32) : FVec Ideal S4000x8 .f32 :=
  concatenate S4000x8 0 [⟨S3999x8, y⟩, ⟨S1x8, zeroRow⟩] concatenates_S3999x8_S1x8_S4000x8_d0
def padBefore (y : FVec Ideal S3999x8 .f32) : FVec Ideal S4000x8 .f32 :=
  concatenate S4000x8 0 [⟨S1x8, zeroRow⟩, ⟨S3999x8, y⟩] concatenates_S1x8_S3999x8_S4000x8_d0

theorem padAfter_apply_lt (y : FVec Ideal S3999x8 .f32) (j : Fin 4000) (r : Fin 8) (h : j.val < 3999) :
    padAfter y (ix2 j r) = y (ix2 (⟨j.val, h⟩ : Fin 3999) r) :=
  concatenate_pair_apply_left (0 : Fin S4000x8.rank) y zeroRow concatenates_S3999x8_S1x8_S4000x8_d0 (ix2 j r) rfl _ (fun b => by
    match b with
    | ⟨0, _⟩ => rfl
    | ⟨1, _⟩ => rfl)

theorem padAfter_apply_last (y : FVec Ideal S3999x8 .f32) (j : Fin 4000) (r : Fin 8) (h : ¬j.val < 3999) :
    padAfter y (ix2 j r) = 0 := by
  have hj : j.val < 4000 := j.isLt
  refine (concatenate_pair_apply_right (0 : Fin S4000x8.rank) y zeroRow concatenates_S3999x8_S1x8_S4000x8_d0 (ix2 j r) rfl rfl
    (ix2 (⟨0, Nat.one_pos⟩ : Fin 1) r) (fun b hb => by
      match b with
      | ⟨0, _⟩ => exact absurd rfl hb
      | ⟨1, _⟩ => rfl) (by show 0 + 3999 = j.val; omega)).trans (zeroRow_apply _)

theorem padBefore_apply_first (y : FVec Ideal S3999x8 .f32) (j : Fin 4000) (r : Fin 8) (h : ¬1 ≤ j.val) :
    padBefore y (ix2 j r) = 0 :=
  (concatenate_pair_apply_left (0 : Fin S4000x8.rank) zeroRow y concatenates_S1x8_S3999x8_S4000x8_d0 (ix2 j r) rfl
    (ix2 (⟨0, Nat.one_pos⟩ : Fin 1) r) (fun b => by
      match b with
      | ⟨0, _⟩ => show 0 = j.val; omega
      | ⟨1, _⟩ => rfl)).trans (zeroRow_apply _)

theorem padBefore_apply_ge (y : FVec Ideal S3999x8 .f32) (j : Fin 4000) (r : Fin 8) (h : 1 ≤ j.val) :
    padBefore y (ix2 j r) = y (ix2 (⟨j.val - 1, by have := j.isLt; omega⟩ : Fin 3999) r) :=
  concatenate_pair_apply_right (0 : Fin S4000x8.rank) zeroRow y concatenates_S1x8_S3999x8_S4000x8_d0 (ix2 j r) rfl rfl _ (fun b hb => by
    match b with
    | ⟨0, _⟩ => exact absurd rfl hb
    | ⟨1, _⟩ => rfl) (by show j.val - 1 + 1 = j.val; omega)

/-- The 4000 segments of 8 samples: segment `j` is frame `j`'s first half plus frame `j − 1`'s second half. -/
def segments : FVec Ideal S4000x8 .f32 :=
  addf (padAfter (fstHalf (frames x0 x1))) (padBefore (sndHalf (frames x0 x1)))

theorem segments_apply (j : Fin 4000) (r : Fin 8) :
    segments x0 x1 (ix2 j r)
      = blockFrame x0 x1 j.val r.val + (if 1 ≤ j.val then blockFrame x0 x1 (j.val - 1) (8 + r.val) else 0) := by
  have hr : r.val < 8 := r.isLt
  show padAfter (fstHalf (frames x0 x1)) (ix2 j r) + padBefore (sndHalf (frames x0 x1)) (ix2 j r) = _
  congr 1
  · by_cases h : j.val < 3999
    · rw [padAfter_apply_lt _ j r h, fstHalf_apply, frames_apply]
    · rw [padAfter_apply_last _ j r h, blockFrame_of_not x0 x1 _ _ (by omega)]
  · by_cases h : 1 ≤ j.val
    · rw [padBefore_apply_ge _ j r h, sndHalf_apply, frames_apply, if_pos h]
    · rw [padBefore_apply_first _ j r h, if_neg h]

/-! ## The payload -/

/-- The body's payload is the segments, flattened and given the block's two unit axes. -/
theorem payload_eq : k0_pay1 x0 x1
    = shapeCast S1x1x32000 (shapeCast S32000 (segments x0 x1) shapeCasts_S4000x8_S32000) shapeCasts_S32000_S1x1x32000 := rfl

/-- THE PAYLOAD AT SAMPLE `t`: frame `t / 8` at `t % 8` plus the frame before at `8 + t % 8`. -/
theorem payload_apply (y : S1x1x32000.Idx) :
    k0_pay1 x0 x1 y
      = blockFrame x0 x1 ((y 2).val / 8) ((y 2).val % 8)
        + (if 1 ≤ (y 2).val / 8 then blockFrame x0 x1 ((y 2).val / 8 - 1) (8 + (y 2).val % 8) else 0) := by
  have h0 : (y 0).val < 1 := (y 0).isLt
  have h1 : (y 1).val < 1 := (y 1).isLt
  have h2 : (y 2).val < 32000 := (y 2).isLt
  rw [payload_eq]
  refine (shapeCast_apply _ shapeCasts_S32000_S1x1x32000 y (ix1 (⟨(y 2).val, h2⟩ : Fin 32000)) (by
    rewrite [Shape.rowMajor_val_one, Shape.rowMajor_val_three]
    show (y 2).val = ((y 0).val * 1 + (y 1).val) * 32000 + (y 2).val
    omega)).trans ?_
  refine (shapeCast_apply _ shapeCasts_S4000x8_S32000 _
    (ix2 (⟨(y 2).val / 8, by omega⟩ : Fin 4000) (⟨(y 2).val % 8, by omega⟩ : Fin 8)) (by
    rewrite [Shape.rowMajor_val_two, Shape.rowMajor_val_one]
    show (y 2).val / 8 * 8 + (y 2).val % 8 = (y 2).val
    omega)).trans ?_
  exact segments_apply x0 x1 _ _

end Cert.KernelIdeal.Body

end
-- ==== Proof.OverlapAddSpec.lean ====
/-
  The function both programs compute, stated once over the argument arrays.

  A FRAME is one row of the product of the input with the transposed weight: for batch `b`, channel `c`, frame
  number `l < 3999` and sample `s < 16`,
      frame b c l s = Σ_{k < 512} x[b, c, l, k] · w[s, k].
  Frames are 16 samples long and start every 8 samples, so output sample `t = 8·j + r` (`r < 8`) is met by at most two
  frames: frame `j` at its sample `r` (when `j < 3999`) and frame `j − 1` at its sample `8 + r` (when `1 ≤ j`).
  OVERLAP-ADD is their sum:
      out[b, c, t] = frame b c (t / 8) (t % 8) + (if 1 ≤ t / 8 then frame b c (t / 8 − 1) (8 + t % 8) else 0),
  with a frame read as `0` outside `l < 3999`, `s < 16` (so the first term vanishes on the last eight samples).
  Frame numbers and samples are natural numbers here, so that each program's index arithmetic meets this statement by
  linear arithmetic alone.
-/
import Idealize.ShloMosaic.PureOps.Ideal
import Idealize.ShloMosaic.Lib.ValueIdx

noncomputable section

namespace Cert.OverlapAdd

open Idealize.ShloMosaic Idealize.ShloMosaic.ValueIdx

/-- The input `[8, 2, 3999, 512]`, the weight `[16, 512]`, the output `[8, 2, 32000]`. -/
abbrev SIn : Shape := ⟨4, ![8, 2, 3999, 512]⟩
abbrev SWt : Shape := ⟨2, ![16, 512]⟩
abbrev SOut : Shape := ⟨3, ![8, 2, 32000]⟩

/-- Sample `s` of frame `l`: the inner product of the input's row `(b, c, l)` with the weight's row `s`; zero
    outside the frames. -/
def frameAt (x : SIn.Idx → EReal) (w : SWt.Idx → EReal) (b : Fin 8) (c : Fin 2) (l s : Nat) : EReal :=
  if h : l < 3999 ∧ s < 16 then ∑ k : Fin 512, x (ix4 b c ⟨l, h.1⟩ k) * w (ix2 ⟨s, h.2⟩ k) else 0

/-- Outside the frames there is nothing. -/
theorem frameAt_of_not (x : SIn.Idx → EReal) (w : SWt.Idx → EReal) (b : Fin 8) (c : Fin 2) (l s : Nat)
    (h : ¬(l < 3999 ∧ s < 16)) : frameAt x w b c l s = 0 := dif_neg h

/-- Inside, the inner product. -/
theorem frameAt_of_lt (x : SIn.Idx → EReal) (w : SWt.Idx → EReal) (b : Fin 8) (c : Fin 2) (l s : Nat)
    (hl : l < 3999) (hs : s < 16) :
    frameAt x w b c l s = ∑ k : Fin 512, x (ix4 b c ⟨l, hl⟩ k) * w (ix2 ⟨s, hs⟩ k) := dif_pos ⟨hl, hs⟩

/-- The overlap-add of the frames at output sample `t`: the frame that starts at `8 · (t / 8)` and the one before it. -/
def overlapAddAt (x : SIn.Idx → EReal) (w : SWt.Idx → EReal) (b : Fin 8) (c : Fin 2) (t : Nat) : EReal :=
  frameAt x w b c (t / 8) (t % 8) + (if 1 ≤ t / 8 then frameAt x w b c (t / 8 - 1) (8 + t % 8) else 0)

/-- The whole result array. -/
def overlapAdd (x : SIn.Idx → EReal) (w : SWt.Idx → EReal) : SOut.Idx → EReal :=
  fun i => overlapAddAt x w (i 0) (i 1) (i 2).val

end Cert.OverlapAdd

end
-- ==== Proof.KernelValue.lean ====
/-
  The kernel computes the overlap-add of the frames.

  Before the region the host regroups the input's batch and channel axes into one axis of 16 (pair `n = 2·b + c`) and
  transposes the weight. The region has one grid point per pair: point `n` reads the input's rows of pair `n` and the
  whole transposed weight, and writes back the 32000 samples of pair `n`. So the frames of the blocks at point `n` are
  the frames of the arguments at `(n / 2, n % 2)`, what the body stores is their overlap-add, the sixteen blocks written
  back tile the region's result array `[16, 1, 32000]`, and the host's regrouping of its leading axis into `[8, 2]`
  after the region gives the overlap-add at `(b, c)`.
-/
import proofs.«159106_j21345987461775_1_alg».proof.Proof.Gen.KernelIdeal.Frame
import proofs.«159106_j21345987461775_1_alg».proof.Proof.KernelPayload
import proofs.«159106_j21345987461775_1_alg».proof.Proof.OverlapAddSpec
import Idealize.ShloMosaic.Lib.Pipeline.Value
import Idealize.ShloMosaic.Lib.StableHlo.Run
import Idealize.ShloMosaic.PureOps.Ideal

set_option maxRecDepth 16384

noncomputable section

namespace Cert.KernelIdeal.KValue

open Cert.KernelIdeal Cert.KernelIdeal.Gen Cert.KernelIdeal.Body Cert.OverlapAdd
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The arrays the region finds -/

/-- The region's first operand is the input with its batch and channel axes regrouped into one. -/
theorem entry_input (c : Dev nD) : (V m c main_v0 : S16x3999x512.Idx → EReal)
    = shapeCast S16x3999x512 (m ((c : Thread nD τ).loc main_arg0)) shapeCasts_S8x2x3999x512_S16x3999x512 := by
  show StableHlo.after hostOps0 (fun b => m (c, b)) (Proc.devRef .tc main_v0) = _
  after_results <;> rfl

/-- The region's second operand is the weight, transposed. -/
theorem entry_weight (c : Dev nD) : (V m c main_v1 : S512x16.Idx → EReal)
    = transpose S512x16 [1, 0] (m ((c : Thread nD τ).loc main_arg1)) transposes_S16x512_S512x16_1_0 := by
  show StableHlo.after hostOps0 (fun b => m (c, b)) (Proc.devRef .tc main_v1) = _
  after_results <;> rfl

/-- Row `(n, l)` of the regrouped input is row `(n / 2, n % 2, l)` of the input. -/
theorem entry_input_apply (c : Dev nD) (n : Fin 16) (l : Fin 3999) (k : Fin 512) :
    (V m c main_v0 : S16x3999x512.Idx → EReal) (ix3 n l k)
      = m ((c : Thread nD τ).loc main_arg0) (ix4 (⟨n.val / 2, by have := n.isLt; omega⟩ : Fin 8) (⟨n.val % 2, by omega⟩ : Fin 2) l k) := by
  have hn : n.val < 16 := n.isLt
  have hl : l.val < 3999 := l.isLt
  have hk : k.val < 512 := k.isLt
  rw [entry_input]
  refine shapeCast_apply _ shapeCasts_S8x2x3999x512_S16x3999x512 _ _ ?_
  rewrite [Shape.rowMajor_val_four, Shape.rowMajor_val_three]
  show ((n.val / 2 * 2 + n.val % 2) * 3999 + l.val) * 512 + k.val = (n.val * 3999 + l.val) * 512 + k.val
  have : n.val / 2 * 2 + n.val % 2 = n.val := by omega
  rw [this]

/-- Element `(k, s)` of the transposed weight is element `(s, k)` of the weight. -/
theorem entry_weight_apply (c : Dev nD) (k : Fin 512) (s : Fin 16) :
    (V m c main_v1 : S512x16.Idx → EReal) (ix2 k s) = m ((c : Thread nD τ).loc main_arg1) (ix2 s k) := by
  rw [entry_weight]
  refine transpose_apply [1, 0] _ transposes_S16x512_S512x16_1_0 _ _ (fun b => ?_)
  match b with
  | ⟨0, _⟩ => rfl
  | ⟨1, _⟩ => rfl

/-! ## The blocks at a grid point -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the sixteen points: the input's and the result's block index is the point on the
    leading axis and zero elsewhere; the weight's block index is zero. -/
theorem idx_facts : ∀ t : Fin cfg0.N, win0_2.index t (0 : Fin 3) = t.val ∧ win0_2.index t (1 : Fin 3) = 0 ∧ win0_2.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0 :=
  (by decide +kernel : ∀ t : Fin grid0.N, _)

theorem point_lt (t : Fin cfg0.N) : t.val < 16 := lt_of_lt_of_eq t.isLt N_0

/-- The frames of two blocks are the frames of two arrays at `(b, c)` when the blocks' rows and columns are those
    arrays' rows. -/
theorem blockFrame_eq (X0 : Vec Ideal S1x3999x512 .f32) (X1 : Vec Ideal S512x16 .f32) (a0 : SIn.Idx → EReal) (a1 : SWt.Idx → EReal)
    (b : Fin 8) (c : Fin 2)
    (h0 : ∀ (l : Fin 3999) (k : Fin 512), X0 (ix3 (⟨0, Nat.one_pos⟩ : Fin 1) l k) = a0 (ix4 b c l k))
    (h1 : ∀ (k : Fin 512) (s : Fin 16), X1 (ix2 k s) = a1 (ix2 s k)) (l s : Nat) :
    blockFrame X0 X1 l s = frameAt a0 a1 b c l s := by
  unfold blockFrame frameAt
  split
  · exact Finset.sum_congr rfl fun k _ => by rw [h0, h1]
  · rfl

/-- The input block at point `t` holds the input's rows of pair `t`. -/
theorem input_block_apply (c : Dev nD) (t : Fin cfg0.N) (l : Fin 3999) (k : Fin 512) :
    iblk m c 0 t (ix3 (⟨0, Nat.one_pos⟩ : Fin 1) l k)
      = m ((c : Thread nD τ).loc main_arg0) (ix4 (⟨t.val / 2, by have := point_lt t; omega⟩ : Fin 8) (⟨t.val % 2, by omega⟩ : Fin 2) l k) := by
  obtain ⟨-, -, -, e0, e1, e2, -, -⟩ := idx_facts t
  have ht := point_lt t
  show V m c main_v0 (((cfg0.win 0).blk t).view.emb (ix3 (⟨0, Nat.one_pos⟩ : Fin 1) l k)) = _
  have e : ((cfg0.win 0).blk t).view.emb (ix3 (⟨0, Nat.one_pos⟩ : Fin 1) l k) = ix3 (⟨t.val, ht⟩ : Fin 16) l k := by
    funext a; apply Fin.ext
    match a with
    | ⟨0, _⟩ => show win0_0.index t (0 : Fin 3) * 1 + 1 * 0 = t.val; omega
    | ⟨1, _⟩ => show win0_0.index t (1 : Fin 3) * 3999 + 1 * l.val = l.val; omega
    | ⟨2, _⟩ => show win0_0.index t (2 : Fin 3) * 512 + 1 * k.val = k.val; omega
  rw [e]
  exact entry_input_apply m c ⟨t.val, ht⟩ l k

/-- The weight block at every point holds the transposed weight. -/
theorem weight_block_apply (c : Dev nD) (t : Fin cfg0.N) (k : Fin 512) (s : Fin 16) :
    iblk m c 1 t (ix2 k s) = m ((c : Thread nD τ).loc main_arg1) (ix2 s k) := by
  obtain ⟨-, -, -, -, -, -, e0, e1⟩ := idx_facts t
  show V m c main_v1 (((cfg0.win 1).blk t).view.emb (ix2 k s)) = _
  have e : ((cfg0.win 1).blk t).view.emb (ix2 k s) = ix2 k s := by
    funext a; apply Fin.ext
    match a with
    | ⟨0, _⟩ => show win0_1.index t (0 : Fin 2) * 512 + 1 * k.val = k.val; omega
    | ⟨1, _⟩ => show win0_1.index t (1 : Fin 2) * 16 + 1 * s.val = s.val; omega
  rw [e]
  exact entry_weight_apply m c k s

/-! ## The region's result array -/

/-- The region's result `[16, 1, 32000]`: pair `n`'s samples are the overlap-add at `(n / 2, n % 2)`. -/
def pairsResult (c : Dev nD) : S16x1x32000.Idx → EReal := fun i =>
  overlapAddAt (m ((c : Thread nD τ).loc main_arg0)) (m ((c : Thread nD τ).loc main_arg1))
    (⟨(i 0).val / 2, by have : (i 0).val < 16 := (i 0).isLt; omega⟩ : Fin 8) (⟨(i 0).val % 2, by omega⟩ : Fin 2) (i 2).val

/-- WHAT POINT `t` WRITES BACK is block `t` of that array. -/
theorem flushed_eq (c : Dev nD) (t : Fin cfg0.N) :
    (dats m 0 c).flushed 2 t = ((cfg0.win 2).blk t).view.read (Elt Ideal) (pairsResult m c) := by
  show (cfg0.win 2).cut (grid0.coords t) ((dats m 0 c).after 2 t) = _
  rw [after0_2]
  unfold out0_2
  rw [View.canon_unit_zero hz3]
  simp only [View.ld_unit_zero (S := S1x3999x512) hz3, View.ld_unit_zero (S := S512x16) hz2]
  obtain ⟨e0, e1, e2, -, -, -, -, -⟩ := idx_facts t
  have ht := point_lt t
  funext y
  have hy0 : (y 0).val < 1 := (y 0).isLt
  have hy2 : (y 2).val < 32000 := (y 2).isLt
  show k0_pay1 (iblk m c 0 t) (iblk m c 1 t) y = pairsResult m c (((cfg0.win 2).blk t).view.emb y)
  refine (payload_apply (iblk m c 0 t) (iblk m c 1 t) y).trans ?_
  have E0 : ((((cfg0.win 2).blk t).view.emb y) 0).val = t.val := by
    show win0_2.index t (0 : Fin 3) * 1 + 1 * (y 0).val = t.val; omega
  have E2 : ((((cfg0.win 2).blk t).view.emb y) 2).val = (y 2).val := by
    show win0_2.index t (2 : Fin 3) * 32000 + 1 * (y 2).val = (y 2).val; omega
  have hb : (⟨((((cfg0.win 2).blk t).view.emb y) 0).val / 2, by omega⟩ : Fin 8) = ⟨t.val / 2, by omega⟩ :=
    Fin.ext (by show ((((cfg0.win 2).blk t).view.emb y) 0).val / 2 = t.val / 2; omega)
  have hc : (⟨((((cfg0.win 2).blk t).view.emb y) 0).val % 2, by omega⟩ : Fin 2) = ⟨t.val % 2, by omega⟩ :=
    Fin.ext (by show ((((cfg0.win 2).blk t).view.emb y) 0).val % 2 = t.val % 2; omega)
  unfold pairsResult overlapAddAt
  rw [hb, hc, E2]
  have F := blockFrame_eq (iblk m c 0 t) (iblk m c 1 t) (m ((c : Thread nD τ).loc main_arg0)) (m ((c : Thread nD τ).loc main_arg1))
    (⟨t.val / 2, by omega⟩ : Fin 8) (⟨t.val % 2, by omega⟩ : Fin 2) (input_block_apply m c t) (weight_block_apply m c t)
  rw [F, F]

/-- An index of the result array is in point `t`'s block iff each coordinate is in the block's range on its axis. -/
theorem mem_blk (t : Fin cfg0.N) (i : S16x1x32000.Idx) :
    i ∈ ((cfg0.win 2).blk t).view.set ↔ ∀ a : Fin 3, win0_2.index t a * S1x1x32000.size a ≤ (i a).val ∧ (i a).val < win0_2.index t a * S1x1x32000.size a + S1x1x32000.size a := by
  show i ∈ ((View.whole main_v2).slice (win0_2.rect t)).set ↔ _
  rw [View.set_slice_whole, Rect.mem_set_unit]
  exact Iff.rfl

/-- Every index of the result array is in the block of the point its leading coordinate names. -/
theorem cover (i : S16x1x32000.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 32000 := (i 2).isLt
  let t : Fin cfg0.N := ⟨(i 0).val, lt_of_lt_of_eq h0 N_0.symm⟩
  have htv : t.val = (i 0).val := rfl
  obtain ⟨e0, e1, e2, -, -, -, -, -⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 32000 ≤ (i 2).val ∧ (i 2).val < win0_2.index t (2 : Fin 3) * 32000 + 32000; omega

/-- THE REGION'S RESULT ARRAY after the run. -/
theorem region_result (c : Dev nD) : (dats m 0 c).arrAt 2 cfg0.N = pairsResult m c :=
  (dats m 0 c).arrAt_eq_of_cover 2 (pairsResult m c) (fun t _ => flushed_eq m c t) cover

/-! ## After the region -/

/-- THE PROGRAM'S RESULT: the host's regrouping of the region's result is the overlap-add of the frames of the arguments. -/
theorem result_eq (c : Dev nD) :
    Pipeline.afterTail₀ cfgs (dats m) 0 (V0 m) [hostOps1] c main_v3
      = overlapAdd (m ((c : Thread nD τ).loc main_arg0)) (m ((c : Thread nD τ).loc main_arg1)) := by
  unfold Pipeline.afterTail₀
  show StableHlo.after hostOps1 _ (Proc.devRef .tc main_v3) = _
  after_results
  show shapeCast S8x2x32000 (Pipeline.withArrays spec0 c (V0 m c) (fun w => (dats m 0 c).arrAt w cfg0.N) (Proc.devRef .tc (Pipeline.arrRef spec0 2)))
    shapeCasts_S16x1x32000_S8x2x32000 = _
  rw [Pipeline.withArrays_arr spec0 launch0.win.arr_inj c _ _ 2, region_result]
  funext i
  have h0 : (i 0).val < 8 := (i 0).isLt
  have h1 : (i 1).val < 2 := (i 1).isLt
  have h2 : (i 2).val < 32000 := (i 2).isLt
  refine (shapeCast_apply (pairsResult m c) shapeCasts_S16x1x32000_S8x2x32000 i
    (ix3 (⟨(i 0).val * 2 + (i 1).val, by omega⟩ : Fin 16) (⟨0, Nat.one_pos⟩ : Fin 1) (⟨(i 2).val, h2⟩ : Fin 32000)) (by
    rewrite [Shape.rowMajor_val_three, Shape.rowMajor_val_three]
    show (((i 0).val * 2 + (i 1).val) * 1 + 0) * 32000 + (i 2).val = ((i 0).val * 2 + (i 1).val) * 32000 + (i 2).val
    omega)).trans ?_
  unfold pairsResult overlapAdd
  have hb : (⟨((i 0).val * 2 + (i 1).val) / 2, by omega⟩ : Fin 8) = i 0 := Fin.ext (by show ((i 0).val * 2 + (i 1).val) / 2 = (i 0).val; omega)
  have hc : (⟨((i 0).val * 2 + (i 1).val) % 2, by omega⟩ : Fin 2) = i 1 := Fin.ext (by show ((i 0).val * 2 + (i 1).val) % 2 = (i 1).val; omega)
  show overlapAddAt _ _ (⟨((i 0).val * 2 + (i 1).val) / 2, _⟩ : Fin 8) (⟨((i 0).val * 2 + (i 1).val) % 2, _⟩ : Fin 2) (i 2).val = _
  rw [hb, hc]

/-! ## The run -/

/-- Every weakly fair execution of the program terminates with its result at the overlap-add of the frames of its
    arguments, and the arguments unchanged. -/
theorem run : θ_run defs (onTc (τ := τ) (main (F := Ideal))) ⟨m, fun _ => 0, ρ⟩ fun r => ∀ c : Dev nD,
      r.2.mem ((c.tc : Thread nD τ).loc main_v3) = overlapAdd (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.LibScatterAdd.lean ====
/-
  Two general facts about an accumulating scatter read at one element of its result.

  1. `ScatterDims.resultIdx?_eq_some_iff`: update index `j` lands on the operand index `i` exactly when, on every operand
     axis, the window's start plus the window coordinate IS `i`'s coordinate (as integers: the start is read signed and is
     not clamped, and an update that leaves the operand lands nowhere).
  2. `sum_filter_two`: a sum over the indices satisfying a predicate that has at most two solutions, `a` (when `ca`)
     and `b` (when `cb`), is the sum of the two terms that are there. In an overlap-add every output sample is met by
     at most two update elements; the same shape serves any scatter whose colliding updates are at most two.
  Together with `Ideal.hostScatterAdd` (the operand element plus the sum of the updates that land on it) they read the
  scatter at an index without listing the updates.
-/
import Idealize.ShloMosaic.PureOps.Ideal

namespace Idealize.ShloMosaic

namespace ScatterDims

variable {s si u : Shape} (d : ScatterDims s si u)

/-- Update index `j` lands on `i` iff start plus window coordinate is `i`'s coordinate on every operand axis. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show d.start j idx a + (d.window j a : Int) = (((d.start j idx a + (d.window j a : Int)).toNat : Nat) : Int)
      omega
    · intro hh
      funext a
      apply Fin.ext
      have := hh a
      show (d.start j idx a + (d.window j a : Int)).toNat = (i a).val
      omega
  · rename_i h
    constructor
    · intro hh; exact absurd hh (by simp)
    · intro hh
      exact absurd (fun a => by have := hh a; have := (i a).isLt; omega) h

end ScatterDims

/-- A sum over the solutions of a predicate with at most two solutions: `a` when `ca` holds, `b` when `cb` holds. -/
theorem sum_filter_two {ι M : Type*} [Fintype ι] [DecidableEq ι] [AddCommMonoid M] (P : ι → Prop) [DecidablePred P]
    (f : ι → M) (a b : ι) (ca cb : Prop) [Decidable ca] [Decidable cb] (hab : a ≠ b)
    (hP : ∀ j, P j ↔ (ca ∧ j = a) ∨ (cb ∧ j = b)) :
    ∑ j ∈ Finset.univ.filter P, f j = (if ca then f a else 0) + (if cb then f b else 0) := by
  by_cases ha : ca <;> by_cases hb : cb
  · have e : Finset.univ.filter P = {a, b} := by
      ext j; simp only [Finset.mem_filter, Finset.mem_univ, true_and, Finset.mem_insert, Finset.mem_singleton, hP j]
      constructor
      · rintro (⟨-, h⟩ | ⟨-, h⟩)
        · exact Or.inl h
        · exact Or.inr h
      · rintro (h | h)
        · exact Or.inl ⟨ha, h⟩
        · exact Or.inr ⟨hb, h⟩
    rw [e, Finset.sum_pair hab, if_pos ha, if_pos hb]
  · have e : Finset.univ.filter P = {a} := by
      ext j; simp only [Finset.mem_filter, Finset.mem_univ, true_and, Finset.mem_singleton, hP j]
      constructor
      · rintro (⟨-, h⟩ | ⟨h, -⟩)
        · exact h
        · exact absurd h hb
      · intro h; exact Or.inl ⟨ha, h⟩
    rw [e, Finset.sum_singleton, if_pos ha, if_neg hb, add_zero]
  · have e : Finset.univ.filter P = {b} := by
      ext j; simp only [Finset.mem_filter, Finset.mem_univ, true_and, Finset.mem_singleton, hP j]
      constructor
      · rintro (⟨h, -⟩ | ⟨-, h⟩)
        · exact absurd h ha
        · exact h
      · intro h; exact Or.inr ⟨hb, h⟩
    rw [e, Finset.sum_singleton, if_neg ha, if_pos hb, zero_add]
  · have e : Finset.univ.filter P = ∅ := by
      ext j; simp only [Finset.mem_filter, Finset.mem_univ, true_and, hP j, Finset.notMem_empty, iff_false]
      rintro (⟨h, -⟩ | ⟨h, -⟩)
      · exact ha h
      · exact hb h
    rw [e, Finset.sum_empty, if_neg ha, if_neg hb, add_zero]

end Idealize.ShloMosaic
-- ==== Proof.ScatterIndex.lean ====
/-
  The reference's scatter, read at its dimension numbers and at its index vector.

  The scatter adds the update array `[8, 2, 63984]` into the zero array `[8, 2, 32000]`: the update's axes 0 and 1 are
  window axes (they go to the operand's axes 0 and 1, start 0), its axis 2 numbers the scatter indices, and the operand's
  axis 2 is the scattered one: update element `(b, c, p)` lands on `(b, c, idx[p])`.
  The index vector is `idx[p] = 8 · (p / 16) + p % 16` — position `p = 16 · l + s` of the flattened frames is sample `s`
  of frame `l`, which starts at output sample `8 · l` —, computed in 32-bit words that never wrap (it is below 32000),
  and never negative, so jnp's wrap of a negative index by the axis length leaves it as it is.
-/
import proofs.«159106_j21345987461775_1_alg».proof.Proof.Gen.ReferenceIdeal.Read
import proofs.«159106_j21345987461775_1_alg».proof.Proof.LibScatterAdd
import Idealize.ShloMosaic.Lib.Affine

noncomputable section

namespace Cert.ReferenceIdeal.Scatter

open Cert.ReferenceIdeal Cert.ReferenceIdeal.Gen Cert.ReferenceIdeal.Read Idealize.ShloMosaic Idealize.ShloMosaic.ValueIdx
open Idealize.ShloMosaic.Affine (IsInt)

variable {F : FTy → Type} [FloatOps F]

/-- The scatter's dimension numbers. -/
abbrev D : ScatterDims S8x2x32000 S63984x1 S8x2x63984 := scatter_S8x2x32000_S63984x1_S8x2x63984_01_2_2_1

/-! ## The index vector -/

/-- The start word of frame `l`'s sample `s`, as the program computes it: `l · 8 + s`, wrapped by 32000 if negative. -/
def startWord (l s : Nat) : BitVec 32 :=
  Scalar.select (IntOp.cmpi .slt (IntOp.addi (IntOp.muli (BitVec.ofNat 32 l) 8#32) (BitVec.ofNat 32 s)) 0#32)
    (IntOp.addi (IntOp.addi (IntOp.muli (BitVec.ofNat 32 l) 8#32) (BitVec.ofNat 32 s)) 32000#32)
    (IntOp.addi (IntOp.muli (BitVec.ofNat 32 l) 8#32) (BitVec.ofNat 32 s))

/-- Read signed it is `8 · l + s`: nothing wraps and nothing is negative. -/
theorem startWord_toInt (l s : Nat) (hl : l < 3999) (hs : s < 16) : (startWord l s).toInt = (l : Int) * 8 + s := by
  have hL : IsInt (BitVec.ofNat 32 l) (l : Int) := Affine.ofNat l ⟨rfl, by omega⟩
  have h8 : IsInt (8#32) (8 : Int) := Affine.ofNat 8 ⟨rfl, by norm_num⟩
  have hS : IsInt (BitVec.ofNat 32 s) (s : Int) := Affine.ofNat s ⟨rfl, by omega⟩
  have h0 : IsInt (0#32) (0 : Int) := Affine.ofNat 0 ⟨rfl, by norm_num⟩
  have hM : IsInt (Scalar.muli (BitVec.ofNat 32 l) 8#32) ((l : Int) * 8) := Affine.muli hL h8 ⟨rfl, by omega, by omega⟩
  have hA : IsInt (Scalar.addi (Scalar.muli (BitVec.ofNat 32 l) 8#32) (BitVec.ofNat 32 s)) ((l : Int) * 8 + s) :=
    Affine.addi hM hS ⟨rfl, by omega, by omega⟩
  have hB : IsInt (Scalar.addi (Scalar.addi (Scalar.muli (BitVec.ofNat 32 l) 8#32) (BitVec.ofNat 32 s)) 32000#32) ((l : Int) * 8 + s + 32000) :=
    Affine.addi hA (Affine.ofNat 32000 ⟨rfl, by norm_num⟩) ⟨rfl, by omega, by omega⟩
  have hC := Affine.slt_fails hA h0 (by omega)
  have hR := Affine.select_fails hC hB hA rfl
  unfold IsInt at hR
  exact hR

/-- The index vector at scatter index `p` is the start word of sample `p % 16` of frame `p / 16`. -/
theorem indexVector_apply (p : Fin 63984) (z : Fin 1) :
    val_main_v18 (F := F) (ix2 p z) = startWord (p.val / 16) (p.val % 16) := by
  rw [val_main_v18_apply, val_main_v17_apply, val_main_v14_apply, val_main_v16_apply, val_main_v13_apply, val_main_v15_apply,
    val_main_c_0_apply, val_main_c_1_apply, val_main_v10_apply, val_main_v9_apply, val_main_v7_apply, val_main_v8_apply,
    val_main_v4_apply, val_main_v6_apply, val_main_v2_apply, val_main_v3_apply, val_main_c_apply, val_main_v1_apply,
    val_main_v5_apply]
  rfl

/-! ## The dimension numbers -/

/-- Update index `j` reads its start index at scatter index `j 2`. -/
theorem siIdx_eq (j : S8x2x63984.Idx) (c : Fin D.scatterDimsToOperandDims.length) :
    D.siIdx j c = ix2 (⟨(j 2).val, (j 2).isLt⟩ : Fin 63984) (⟨0, Nat.one_pos⟩ : Fin 1) :=
  funext fun b => Fin.ext (by
    match b with
    | ⟨0, _⟩ => rfl
    | ⟨1, _⟩ => have := c.isLt; show c.val = 0; simp only [D, scatter_S8x2x32000_S63984x1_S8x2x63984_01_2_2_1, List.length_singleton] at this; omega)

/-- The window starts at 0 on the two window axes, -/
theorem start_0 {w : Nat} (j : S8x2x63984.Idx) (idx : IVec S63984x1 w) : D.start j idx 0 = 0 := by
  unfold ScatterDims.start
  rw [dif_neg (show ¬(0 : Fin S8x2x32000.rank) ∈ D.scatterDimsToOperandDims by decide)]
theorem start_1 {w : Nat} (j : S8x2x63984.Idx) (idx : IVec S63984x1 w) : D.start j idx 1 = 0 := by
  unfold ScatterDims.start
  rw [dif_neg (show ¬(1 : Fin S8x2x32000.rank) ∈ D.scatterDimsToOperandDims by decide)]
/-- and at the index vector's word, read signed, on the scattered axis. -/
theorem start_2 {w : Nat} (j : S8x2x63984.Idx) (idx : IVec S63984x1 w) :
    D.start j idx 2 = (idx (ix2 (⟨(j 2).val, (j 2).isLt⟩ : Fin 63984) (⟨0, Nat.one_pos⟩ : Fin 1))).toInt := by
  unfold ScatterDims.start
  rw [dif_pos (show (2 : Fin S8x2x32000.rank) ∈ D.scatterDimsToOperandDims by decide), siIdx_eq]

/-- The window coordinates are the update index's on the window axes, none on the scattered axis. -/
theorem window_0 (j : S8x2x63984.Idx) : D.window j 0 = (j 0).val := by
  unfold ScatterDims.window
  rw [dif_pos (show (0 : Fin S8x2x32000.rank) ∈ D.sKept by decide)]
  rfl
theorem window_1 (j : S8x2x63984.Idx) : D.window j 1 = (j 1).val := by
  unfold ScatterDims.window
  rw [dif_pos (show (1 : Fin S8x2x32000.rank) ∈ D.sKept by decide)]
  rfl
theorem window_2 (j : S8x2x63984.Idx) : D.window j 2 = 0 := by
  unfold ScatterDims.window
  rw [dif_neg (show ¬(2 : Fin S8x2x32000.rank) ∈ D.sKept by decide)]

/-- WHERE AN UPDATE LANDS: update element `(b', c', p)` lands on `(b, c, t)` iff `b' = b`, `c' = c` and
    `8 · (p / 16) + p % 16 = t`. -/
theorem lands_iff (j : S8x2x63984.Idx) (i : S8x2x32000.Idx) :
    D.resultIdx? j (val_main_v18 (F := F)) = some i ↔
      (j 0).val = (i 0).val ∧ (j 1).val = (i 1).val ∧ (j 2).val / 16 * 8 + (j 2).val % 16 = (i 2).val := by
  rw [ScatterDims.resultIdx?_eq_some_iff]
  have hp : (j 2).val < 63984 := (j 2).isLt
  have hw := startWord_toInt ((j 2).val / 16) ((j 2).val % 16) (by omega) (by omega)
  constructor
  · intro h
    have h0 := h 0; have h1 := h 1; have h2 := h 2
    rw [start_0, window_0] at h0
    rw [start_1, window_1] at h1
    rw [start_2, window_2, indexVector_apply, hw] at h2
    refine ⟨by omega, by omega, by omega⟩
  · rintro ⟨h0, h1, h2⟩ a
    match a with
    | ⟨0, _⟩ => show D.start j _ 0 + (D.window j 0 : Int) = ((i 0).val : Int); rw [start_0, window_0]; omega
    | ⟨1, _⟩ => show D.start j _ 1 + (D.window j 1 : Int) = ((i 1).val : Int); rw [start_1, window_1]; omega
    | ⟨2, _⟩ => show D.start j _ 2 + (D.window j 2 : Int) = ((i 2).val : Int); rw [start_2, window_2, indexVector_apply, hw]; omega

end Cert.ReferenceIdeal.Scatter

end
-- ==== Proof.ReferenceValue.lean ====
/-
  The reference computes the overlap-add of the frames.

  Its result is the zero array plus, at each element `(b, c, t)`, the sum of the update elements that land there.
  The update array is the frames flattened: element `(b, c, p)` is sample `p % 16` of frame `p / 16`. It lands on
  `(b, c, 8 · (p / 16) + p % 16)`, so the elements that land on `t` are at most two: `p = 16 · (t / 8) + t % 8` (frame
  `t / 8`, when there is such a frame) and `p = 16 · (t / 8 − 1) + 8 + t % 8` (the frame before, when `1 ≤ t / 8`).
  Their sum, after the zero, is the specification's overlap-add.
-/
import proofs.«159106_j21345987461775_1_alg».proof.Proof.ScatterIndex
import proofs.«159106_j21345987461775_1_alg».proof.Proof.OverlapAddSpec

noncomputable section

namespace Cert.ReferenceIdeal.RefValue

open Cert.ReferenceIdeal Cert.ReferenceIdeal.Gen Cert.ReferenceIdeal.Read Cert.ReferenceIdeal.Scatter Cert.OverlapAdd
open Idealize.ShloMosaic Idealize.ShloMosaic.ValueIdx

/-- A rank-3 index is the one with given coordinates iff its coordinates are those. -/
theorem eq_ix3_iff {n0 n1 n2 : Nat} (j : (⟨3, ![n0, n1, n2]⟩ : Shape).Idx) (a : Fin n0) (b : Fin n1) (c : Fin n2) :
    j = ix3 a b c ↔ (j 0).val = a.val ∧ (j 1).val = b.val ∧ (j 2).val = c.val := by
  constructor
  · rintro rfl; exact ⟨rfl, rfl, rfl⟩
  · rintro ⟨h0, h1, h2⟩
    funext d
    match d with
    | ⟨0, _⟩ => exact Fin.ext h0
    | ⟨1, _⟩ => exact Fin.ext h1
    | ⟨2, _⟩ => exact Fin.ext h2

/-- The update array is the frames, flattened: element `(b, c, p)` is sample `p % 16` of frame `p / 16`. -/
theorem update_apply (x0 : (⟨S8x2x3999x512, .f32⟩ : BufTy).Contents (Elt Ideal)) (x1 : (⟨S16x512, .f32⟩ : BufTy).Contents (Elt Ideal))
    (b : Fin 8) (c : Fin 2) (p : Fin 63984) :
    val_main_v11 (F := Ideal) x0 x1 (ix3 b c p) = frameAt x0 x1 b c (p.val / 16) (p.val % 16) := by
  have hb : b.val < 8 := b.isLt
  have hc : c.val < 2 := c.isLt
  have hp : p.val < 63984 := p.isLt
  rw [val_main_v11_apply, val_main_v0_apply, frameAt_of_lt x0 x1 b c _ _ (by omega) (by omega)]
  refine Finset.sum_congr rfl fun k _ => ?_
  have el : lidx_main_v0 (idx_main_v11 (ix3 b c p)) k = ix4 b c (⟨p.val / 16, by omega⟩ : Fin 3999) k :=
    funext fun a => Fin.ext (by
      match a with
      | ⟨0, _⟩ => show ((b.val * 2 + c.val) * 63984 + p.val) / 127968 = b.val; omega
      | ⟨1, _⟩ => show ((b.val * 2 + c.val) * 63984 + p.val) / 63984 % 2 = c.val; omega
      | ⟨2, _⟩ => show ((b.val * 2 + c.val) * 63984 + p.val) / 16 % 3999 = p.val / 16; omega
      | ⟨3, _⟩ => rfl)
  have er : ridx_main_v0 (idx_main_v11 (ix3 b c p)) k = ix2 (⟨p.val % 16, by omega⟩ : Fin 16) k :=
    funext fun a => Fin.ext (by
      match a with
      | ⟨0, _⟩ => show ((b.val * 2 + c.val) * 63984 + p.val) % 16 = p.val % 16; omega
      | ⟨1, _⟩ => rfl)
  rw [el, er]

/-- THE REFERENCE'S RESULT is the overlap-add of the frames of its two arguments. -/
theorem reference_eq (x0 : (⟨S8x2x3999x512, .f32⟩ : BufTy).Contents (Elt Ideal)) (x1 : (⟨S16x512, .f32⟩ : BufTy).Contents (Elt Ideal)) :
    val_main_v19 (F := Ideal) x0 x1 = overlapAdd x0 x1 := by
  funext i
  obtain ⟨b, c, t, rfl⟩ : ∃ (b : Fin 8) (c : Fin 2) (t : Fin 32000), i = ix3 b c t := ⟨i 0, i 1, i 2, eq_ix3 i⟩
  have hb : b.val < 8 := b.isLt
  have hc : c.val < 2 := c.isLt
  have ht : t.val < 32000 := t.isLt
  -- the two update elements that can land on sample `t`
  let pA : Fin 63984 := ⟨(t.val / 8 * 16 + t.val % 8) % 63984, Nat.mod_lt _ (by norm_num)⟩
  let pB : Fin 63984 := ⟨((t.val / 8 - 1) * 16 + 8 + t.val % 8) % 63984, Nat.mod_lt _ (by norm_num)⟩
  have hpA : pA.val = (t.val / 8 * 16 + t.val % 8) % 63984 := rfl
  have hpB : pB.val = ((t.val / 8 - 1) * 16 + 8 + t.val % 8) % 63984 := rfl
  unfold val_main_v19 Host.scatterAdd
  rw [Ideal.hostScatterAdd_def]
  unfold Ideal.hostScatterAdd
  rw [val_main_v12_apply, val_main_cst_apply]
  show Ideal.ofBits .f32 0x00000000#32 + _ = _
  rw [Ideal.ofBits_zero_f32, zero_add]
  rw [sum_filter_two (fun j => D.resultIdx? j (val_main_v18 (F := Ideal)) = some (ix3 b c t)) (val_main_v11 (F := Ideal) x0 x1)
    (ix3 b c pA) (ix3 b c pB) (t.val / 8 < 3999) (1 ≤ t.val / 8)
    (fun e => by
      have := ((eq_ix3_iff _ b c pB).mp e).2.2
      have h2 : pA.val = pB.val := this
      rw [hpA, hpB] at h2; omega)
    (fun j => by
      have hj : (j 2).val < 63984 := (j 2).isLt
      rw [lands_iff, eq_ix3_iff, eq_ix3_iff, hpA, hpB]
      show (j 0).val = b.val ∧ (j 1).val = c.val ∧ (j 2).val / 16 * 8 + (j 2).val % 16 = t.val ↔ _
      omega)]
  rw [update_apply, update_apply]
  show _ = frameAt x0 x1 b c (t.val / 8) (t.val % 8) + (if 1 ≤ t.val / 8 then frameAt x0 x1 b c (t.val / 8 - 1) (8 + t.val % 8) else 0)
  congr 1
  · by_cases h : t.val / 8 < 3999
    · rw [if_pos h]
      have e1 : pA.val / 16 = t.val / 8 := by rw [hpA]; omega
      have e2 : pA.val % 16 = t.val % 8 := by rw [hpA]; omega
      rw [e1, e2]
    · rw [if_neg h, frameAt_of_not x0 x1 b c _ _ (by omega)]
  · by_cases h : 1 ≤ t.val / 8
    · rw [if_pos h, if_pos h]
      have e1 : pB.val / 16 = t.val / 8 - 1 := by rw [hpB]; omega
      have e2 : pB.val % 16 = 8 + t.val % 8 := by rw [hpB]; omega
      rw [e1, e2]
    · rw [if_neg h, if_neg h]

end Cert.ReferenceIdeal.RefValue

end
-- ==== Proof.lean ====
/-
  Overlap-add of linear frames: the kernel and its reference compute one function on the extended reals.

  Both programs take an input `x : [8, 2, 3999, 512]` and a weight `w : [16, 512]`. A FRAME is a row of `x · wᵀ`:
      frame b c l s = Σ_{k < 512} x[b, c, l, k] · w[s, k]        (l < 3999, s < 16).
  Frames are 16 samples long and start every 8 samples; the result `[8, 2, 32000]` adds, at every output sample, the
  frame samples that fall on it. Sample `t` is met by frame `t / 8` at its sample `t % 8` and by frame `t / 8 − 1` at
  its sample `8 + t % 8`, whichever of the two exist (Proof/OverlapAddSpec.lean).

  The reference forms all frames by one contraction, flattens them, and scatter-adds element `p = 16·l + s` of the
  flattened frames into the zero array at sample `8·l + s`: at the exact values that is the zero plus the sum of the
  (at most two) elements landing on each sample (Proof/ScatterIndex.lean, Proof/ReferenceValue.lean, over the general
  facts of Proof/LibScatterAdd.lean).
  The kernel handles one batch-channel pair per grid point: it multiplies the pair's rows by the transposed weight, pads
  the frames' first halves with a zero row after and their second halves with a zero row before, adds the two and
  flattens (Proof/KernelPayload.lean); its sixteen blocks tile the result (Proof/KernelValue.lean).
  The two sides differ only in how the at most two terms and the zeros are grouped, so they are equal by the monoid laws of
  addition on the extended reals; no input needs to be finite for that. The change of float format before the kernel's
  product is the identity at the exact values, and the product's accumulator is zero, as is the scatter's operand.
  The idealized kernel is the kernel's own text (no rewrite was applied), so nothing is owed for the idealization.
-/
import proofs.«159106_j21345987461775_1_alg».proof.Defs
import proofs.«159106_j21345987461775_1_alg».proof.Proof.Gen.Kernel
import proofs.«159106_j21345987461775_1_alg».proof.Proof.Gen.Kernel.Skeleton
import proofs.«159106_j21345987461775_1_alg».proof.Proof.Gen.Kernel.Launch
import proofs.«159106_j21345987461775_1_alg».proof.Proof.Gen.Kernel.Points
import proofs.«159106_j21345987461775_1_alg».proof.Proof.Gen.Kernel.Frame
import proofs.«159106_j21345987461775_1_alg».proof.Proof.Gen.KernelIdeal
import proofs.«159106_j21345987461775_1_alg».proof.Proof.Gen.KernelIdeal.Skeleton
import proofs.«159106_j21345987461775_1_alg».proof.Proof.Gen.KernelIdeal.Launch
import proofs.«159106_j21345987461775_1_alg».proof.Proof.Gen.KernelIdeal.Points
import proofs.«159106_j21345987461775_1_alg».proof.Proof.Gen.KernelIdeal.Frame
import proofs.«159106_j21345987461775_1_alg».proof.Proof.Gen.ReferenceIdeal
import proofs.«159106_j21345987461775_1_alg».proof.Proof.Gen.Pre_finite_inputs
import proofs.«159106_j21345987461775_1_alg».proof.Proof.Gen.ReferenceIdeal.Run
import proofs.«159106_j21345987461775_1_alg».proof.Proof.Gen.ReferenceIdeal.Read
import proofs.«159106_j21345987461775_1_alg».proof.Proof.KernelValue
import proofs.«159106_j21345987461775_1_alg».proof.Proof.ReferenceValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No rewrite was applied in printing the kernel for the exact values. -/
theorem preserves : Cert.preserves_Kernel_KernelIdeal := trivial

/-- From memories that agree on the two arguments, both programs end with the overlap-add of the arguments' frames. -/
theorem algebraic : Cert.algebraic_KernelIdeal_ReferenceIdeal := by
  intro m ρ m' ρ' _ hagree
  refine ⟨fun c => Cert.OverlapAdd.overlapAdd
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v19_eq (F := Ideal) _ _).trans
    ((Cert.ReferenceIdeal.RefValue.reference_eq _ _).trans ?_))
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
